-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64x64 : Shape := ⟨4, ![64, 256, 64, 64]⟩
abbrev S_ : Shape := ⟨0, ![]⟩

class Facts : Prop where
  bcast_S_S64x256x64x64 : S_.BroadcastsInDim S64x256x64x64 (![] : Fin 0 → Fin S64x256x64x64.rank)
  reducesTo_S64x256x64x64_S_d0_1_2_3 : S64x256x64x64.ReducesTo [0, 1, 2, 3] S_
  h_S_ : 0 < S_.numel

variable [Facts]

def fn {F : FTy → Type} [FloatOps F] (main_arg0 : FVec F S64x256x64x64 .f32) : IVec S_ 1 :=
  let main_v0 : FVec F S64x256x64x64 .f32 := Host.absf main_arg0
  let main_cst : FVec F S_ .f32 := constant S_ .f32 0x7F800000#32
  let main_v1 : FVec F S64x256x64x64 .f32 := broadcastInDim S64x256x64x64 ![] bcast_S_S64x256x64x64 main_cst
  let main_v2 : IVec S64x256x64x64 1 := cmpf .olt main_v0 main_v1
  let main_c : IVec S_ 1 := constantI S_ 1 1#1
  let main_v3 : IVec S_ 1 := (fun x v => Host.reduce IntOp.andi x v reducesTo_S64x256x64x64_S_d0_1_2_3 h_S_) main_v2 main_c
  main_v3
-- ==== Kernel.lean ====
abbrev S64x256x64x64 : Shape := ⟨4, ![64, 256, 64, 64]⟩
abbrev S64x256x4096 : Shape := ⟨3, ![64, 256, 4096]⟩
abbrev S64x256 : Shape := ⟨2, ![64, 256]⟩
abbrev S8x128x4096 : Shape := ⟨3, ![8, 128, 4096]⟩
abbrev S8x128 : Shape := ⟨2, ![8, 128]⟩

abbrev nBuf : Space → Nat
  | .hbm => 3
  | .vmem => 4
  | .smem => 0
  | _ => 0

abbrev bufTy : (tb : Table) → Fin (tcTables nBuf tb) → BufTy
  | .hbm, ⟨0, _⟩ => ⟨S64x256x64x64, .f32⟩
  | .hbm, ⟨1, _⟩ => ⟨S64x256x4096, .f32⟩
  | .hbm, ⟨2, _⟩ => ⟨S64x256, .f32⟩
  | .local _ .vmem, ⟨0, _⟩ => ⟨S8x128x4096, .f32⟩
  | .local _ .vmem, ⟨1, _⟩ => ⟨S8x128x4096, .f32⟩
  | .local _ .vmem, ⟨2, _⟩ => ⟨S8x128, .f32⟩
  | .local _ .vmem, ⟨3, _⟩ => ⟨S8x128, .f32⟩
  | _, _ => ⟨S64x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S64x256x64x64_S64x256x4096 : S64x256x64x64.ShapeCasts S64x256x4096
  inb_S8x128x4096_S8x128x4096_0_0_0 : ∀ a, (![0, 0, 0] : Fin 3 → Nat) a + S8x128x4096.size a ≤ S8x128x4096.size a
  h_S8x128x4096 : 0 < S8x128x4096.numel
  shapeCasts_S8x128x4096_S8x128x4096 : S8x128x4096.ShapeCasts S8x128x4096
  reduces_S8x128x4096_S8x128 : S8x128x4096.Reduces [2] S8x128
  inb_S8x128_S8x128_0_0 : ∀ a, (![0, 0] : Fin 2 → Nat) a + S8x128.size a ≤ S8x128.size a
  h_S8x128 : 0 < S8x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x4096.size a ≤ S64x256x4096.size a
  hwx0_0 : ∀ i : grid0.Coords, EltTy.bits .f32 = 32 ∨ (Rect.block (s := S64x256x4096) S8x128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S64x256.size a
  hwx0_1 : ∀ i : grid0.Coords, EltTy.bits .f32 = 32 ∨ (Rect.block (s := S64x256) S8x128.size (cc0_transform_1 i) (hinb0_1 i)).WholeWords (EltTy.packing .f32)

variable [Facts₀]

abbrev win0_0 : Pipeline.Window sig grid0 :=
  Pipeline.Window.ofSpec (Memref.whole main_v0) S8x128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x256x64x64 : Shape := ⟨4, ![64, 256, 64, 64]⟩
abbrev S64x256x4096 : Shape := ⟨3, ![64, 256, 4096]⟩
abbrev S_ : Shape := ⟨0, ![]⟩
abbrev S64x256 : Shape := ⟨2, ![64, 256]⟩

abbrev nBuf : Space → Nat
  | .hbm => 7
  | .vmem => 0
  | .smem => 0
  | _ => 0

abbrev bufTy : (tb : Table) → Fin (tcTables nBuf tb) → BufTy
  | .hbm, ⟨0, _⟩ => ⟨S64x256x64x64, .f32⟩
  | .hbm, ⟨1, _⟩ => ⟨S64x256x4096, .f32⟩
  | .hbm, ⟨2, _⟩ => ⟨S_, .f32⟩
  | .hbm, ⟨3, _⟩ => ⟨S64x256, .f32⟩
  | .hbm, ⟨4, _⟩ => ⟨S_, .f32⟩
  | .hbm, ⟨5, _⟩ => ⟨S64x256, .f32⟩
  | .hbm, ⟨6, _⟩ => ⟨S64x256, .f32⟩
  | _, _ => ⟨S64x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  shapeCasts_S64x256x64x64_S64x256x4096 : S64x256x64x64.ShapeCasts S64x256x4096
  reducesTo_S64x256x4096_S64x256_d2 : S64x256x4096.ReducesTo [2] S64x256
  h_S_ : 0 < S_.numel
  bcast_S_S64x256 : S_.BroadcastsInDim S64x256 (![] : Fin 0 → Fin S64x256.rank)

variable [Facts₀]

class Facts : Prop extends Facts₀ where

variable [Facts]
-- ==== Proof.RowMean.lean ====
/-
  The mathematics of the certificate, free of any program.

  For an array `y` of shape [64, 256, 4096] over the extended reals, `rowMean y` is the array of shape [64, 256] whose
  entry (b, c) is the sum of row (b, c, ·) of `y` times 2⁻¹² — the mean of the row's 4096 entries, the
  reciprocal of the row length being an exact power of two.

  The one law between the two programs: multiplying by 2⁻¹² and dividing by 4096 are the same function on EVERY extended real
  (the infinities included, so no finiteness is asked of the entries), because 4096 is a nonzero real and division of an
  extended real by a nonzero real is multiplication by its reciprocal.
-/
import Idealize.ShloMosaic.PureOps.Ideal
import Idealize.ShloMosaic.Lib.ValueIdx

noncomputable section

namespace Cert.RowMean

open Idealize.ShloMosaic

/-- The word `0x39800000` (sign 0, exponent 115, fraction 0) denotes 2⁻¹² = 1/4096. -/
theorem ofBits_inv4096 : Ideal.ofBits .f32 0x39800000#32 = ((1 / 4096 : ℝ) : EReal) := by
  simp [Ideal.ofBits, Ideal.ieee, -EReal.coe_mul]; norm_num

/-- The word `0x45800000` (sign 0, exponent 139, fraction 0) denotes 2¹² = 4096. -/
theorem ofBits_4096 : Ideal.ofBits .f32 0x45800000#32 = ((4096 : ℝ) : EReal) := by
  simp [Ideal.ofBits, Ideal.ieee, -EReal.coe_mul]; norm_num

/-- The all-zero word denotes 0. -/
theorem ofBits_zero : Ideal.ofBits .f32 0x00000000#32 = 0 := by
  simp [Ideal.ofBits, Ideal.ieee]

/-- THE LAW: on every extended real, the product with 2⁻¹² is the quotient by 4096. -/
theorem scale_eq_div (s : EReal) :
    s * Ideal.ofBits .f32 0x39800000#32 = Ideal.div s (Ideal.ofBits .f32 0x45800000#32) := by
  rw [ofBits_inv4096, ofBits_4096, Ideal.div_coe (by norm_num : (4096 : ℝ) ≠ 0)]

/-- The arrays' shapes: the rows laid out, and one entry per row. -/
abbrev Rows : Shape := ⟨3, ![64, 256, 4096]⟩
abbrev Out : Shape := ⟨2, ![64, 256]⟩

/-- Entry `k` of the row that output index `i` = (b, c) stands for: the index (b, c, k). -/
abbrev rowIdx (i : Out.Idx) (k : Fin 4096) : Rows.Idx := fun a => match a with
  | ⟨0, _⟩ => ⟨(i 0).val, (i 0).isLt⟩
  | ⟨1, _⟩ => ⟨(i 1).val, (i 1).isLt⟩
  | ⟨2, _⟩ => ⟨k.val, k.isLt⟩

/-- THE SPECIFICATION: each output entry is its row's sum times 2⁻¹². -/
def rowMean (y : Rows.Idx → EReal) : Out.Idx → EReal :=
  fun i => (∑ k : Fin 4096, y (rowIdx i k)) * Ideal.ofBits .f32 0x39800000#32

theorem rowMean_apply (y : Rows.Idx → EReal) (i : Out.Idx) :
    rowMean y i = (∑ k : Fin 4096, y (rowIdx i k)) * Ideal.ofBits .f32 0x39800000#32 := rfl

/-- The same entry as the reference spells it: zero plus the row's sum, divided by 4096. -/
theorem rowMean_eq_div (y : Rows.Idx → EReal) (i : Out.Idx) :
    Ideal.div (Ideal.ofBits .f32 0x00000000#32 + ∑ k : Fin 4096, y (rowIdx i k)) (Ideal.ofBits .f32 0x45800000#32)
      = rowMean y i := by
  rw [ofBits_zero, zero_add, rowMean_apply, scale_eq_div]

end Cert.RowMean

end
-- ==== Proof.RefMean.lean ====
/-
  The reference, read at an index: it reshapes the argument to rows [64, 256, 4096], sums each row from zero, and divides the
  sums by 4096. Entry (b, c) of its result is therefore (0 + Σₖ y(b, c, k)) / 4096 with `y` the reshaped argument — the row mean of
  `y` (the quotient by 4096 being the product with 2⁻¹²).
-/
import proofs.«163873_j36679020708252_2_alg».proof.Proof.Gen.ReferenceIdeal.Read
import proofs.«163873_j36679020708252_2_alg».proof.Proof.RowMean

noncomputable section

namespace Cert.ReferenceIdeal.Mean

open Cert.ReferenceIdeal Cert.ReferenceIdeal.Gen Idealize.ShloMosaic Cert.RowMean

/-- The reference's result is the row mean of its reshaped argument. -/
theorem result_eq (x0 : (⟨S64x256x64x64, .f32⟩ : BufTy).Contents (Elt Ideal)) :
    Read.val_main_v3 (F := Ideal) x0 = rowMean (Read.val_main_v0 (F := Ideal) x0) := by
  funext i
  rw [Read.val_main_v3_apply, Read.val_main_v1_apply, Read.val_main_v2_apply, Read.val_main_cst_0_apply,
    Read.val_main_cst_apply]
  simp only [Ideal.hostDivf_def, Ideal.ofBits_def]
  exact rowMean_eq_div (Read.val_main_v0 (F := Ideal) x0) i

end Cert.ReferenceIdeal.Mean

end
-- ==== Proof.BlockMean.lean ====
/-
  The kernel's body at one grid point, read at an index. The body loads its input block `P` of shape [8, 128, 4096], sums it
  along the last axis from zero, and multiplies every sum by the constant 2⁻¹². Entry (r, q) of what it stores is therefore
  (Σₖ P(r, q, k)) · 2⁻¹²: the row mean of the block.
-/
import proofs.«163873_j36679020708252_2_alg».proof.Proof.Gen.KernelIdeal.Skeleton
import proofs.«163873_j36679020708252_2_alg».proof.Proof.RowMean
import Idealize.ShloMosaic.PureOps.Ideal.Laws
import Idealize.ShloMosaic.Lib.Pipeline.Value

noncomputable section

namespace Cert.KernelIdeal.Mean

open Cert.KernelIdeal Cert.KernelIdeal.Gen Idealize.ShloMosaic

/-- Entry `k` of the block's row that the block's output index `y` = (r, q) stands for: the index (r, q, k). -/
abbrev blockRowIdx (y : S8x128.Idx) (k : Fin 4096) : S8x128x4096.Idx := fun a => match a with
  | ⟨0, _⟩ => ⟨(y 0).val, (y 0).isLt⟩
  | ⟨1, _⟩ => ⟨(y 1).val, (y 1).isLt⟩
  | ⟨2, _⟩ => ⟨k.val, k.isLt⟩

/-- The lane sum of a block along its last axis, at an index: the plain finite sum of the row. -/
theorem rowSum_apply (P : FVec Ideal S8x128x4096 .f32) (h : S8x128x4096.Reduces [2] S8x128) (hφ : FKind.Formats .f32)
    (hacc : (0x00000000#32 : BitVec 32) = 0x00000000#32) (y : S8x128.Idx) :
    multiReduction (F := Ideal) .add [2] S8x128 P 0x00000000#32 h hφ hacc y = ∑ k : Fin 4096, P (blockRowIdx y k) := by
  refine (Ideal.multiReduction_add_single P 0x00000000#32 h hφ hacc y).trans ?_
  refine Finset.sum_congr rfl fun k _ => congrArg P (funext fun a => Fin.ext ?_)
  match a with
  | ⟨0, _⟩ => rfl
  | ⟨1, _⟩ => rfl
  | ⟨2, _⟩ => rfl

/-- What the body stores, at an index: the block's row sum times 2⁻¹². -/
theorem payload_apply (P : Vec Ideal S8x128x4096 .f32) (y : S8x128.Idx) :
    k0_pay1 (F := Ideal) P y = (∑ k : Fin 4096, P (blockRowIdx y k)) * Ideal.ofBits .f32 0x39800000#32 := by
  unfold k0_pay1
  show FloatOps.mulf (multiReduction (F := Ideal) .add [2] S8x128 (shapeCast S8x128x4096 P shapeCasts_S8x128x4096_S8x128x4096)
      0x00000000#32 reduces_S8x128x4096_S8x128 (.inl rfl) rfl y) (Scalar.ofBits .f32 0x39800000#32) = _
  rw [shapeCast_self, rowSum_apply]
  rfl

end Cert.KernelIdeal.Mean

end
-- ==== Proof.PoolArray.lean ====
/-
  From the grid's blocks to the whole result array of the kernel.

  The grid has 8 × 2 points; at point (p, q) the input block is rows [8p, 8p+8) × [128q, 128q+128) × [0, 4096) of the
  reshaped argument `y` and the output block is rows [8p, 8p+8) × [128q, 128q+128) of the result. The body leaves in the output
  block the row means of the input block, and entry (r, s, k) of the input block is entry (8p + r, 128q + s, k) of `y`, so what
  each point writes back is its block of ONE whole-array function, the row mean of `y`. The 16 output blocks tile the
  [64, 256] result (index (b, c) lies in the block of point (b / 8, c / 128)), so after the run the result array is the row
  mean of `y`; and `y` is the argument reshaped, the one host operation before the launch.
-/
import proofs.«163873_j36679020708252_2_alg».proof.Proof.Gen.KernelIdeal.Value
import proofs.«163873_j36679020708252_2_alg».proof.Proof.BlockMean
import proofs.«163873_j36679020708252_2_alg».proof.Proof.RowMean
import Idealize.ShloMosaic.Lib.Pipeline.Value
import Idealize.ShloMosaic.Lib.StableHlo.Run

noncomputable section

namespace Cert.KernelIdeal.Mean

open Cert.KernelIdeal Cert.KernelIdeal.Gen Idealize.ShloMosaic Idealize.ShloMosaic.TcCoe Idealize.SL.Sem
open Idealize.ShloMosaic.StableHlo
open Idealize.ShloMosaic.Pipeline (Dat)
open Cert.RowMean

variable (m : (ℓ : Loc nD τ sig) → Buf (Elt Ideal) ℓ) (ρ : Dev nD → PrngReg)

theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The two index maps over the 16 grid points: the input block sits over the output block on the two leading axes and
    at block 0 of the row axis; the output's block indices range over 8 × 2. -/
theorem block_indices : ∀ t : Fin cfg0.N,
    win0_0.index t (0 : Fin 3) = win0_1.index t (0 : Fin 2)
    ∧ win0_0.index t (1 : Fin 3) = win0_1.index t (1 : Fin 2)
    ∧ win0_0.index t (2 : Fin 3) = 0
    ∧ win0_1.index t (0 : Fin 2) ≤ 7 ∧ win0_1.index t (1 : Fin 2) ≤ 1 :=
  (by decide +kernel : ∀ t : Fin grid0.N, _)

/-- Every one of the 8 × 2 output blocks is some point's. -/
theorem block_onto : ∀ (q0 : Fin 8) (q1 : Fin 2), ∃ t : Fin cfg0.N, win0_1.index t = ![q0.val, q1.val] :=
  (by decide +kernel : ∀ (q0 : Fin 8) (q1 : Fin 2), ∃ t : Fin grid0.N, win0_1.index t = ![q0.val, q1.val])

/-- The rows the kernel pools: the array the launch finds in its input window. -/
abbrev rows (c : Dev nD) : Rows.Idx → EReal := V m c main_v0

/-- WHAT POINT `t` WRITES BACK is block `t` of the row mean of `rows`. -/
theorem flushed_eq (c : Dev nD) (t : Fin cfg0.N) :
    (dats m 0 c).flushed 1 t = ((cfg0.win 1).blk t).view.read (Elt Ideal) (rowMean (rows m c)) := by
  rw [Value.flushed1]
  unfold out0_1
  rw [View.canon_unit_zero zero_off2]
  simp only [View.ld_unit_zero (S := S8x128x4096) zero_off3]
  obtain ⟨e0, e1, e2, -, -⟩ := block_indices t
  funext j
  show k0_pay1 (F := Ideal) (iblk m c 0 t) j = rowMean (rows m c) (((cfg0.win 1).blk t).view.emb j)
  refine (payload_apply (iblk m c 0 t) j).trans ?_
  rw [rowMean_apply]
  refine congrArg (· * _) (Finset.sum_congr rfl fun k _ => ?_)
  show V m c main_v0 (((cfg0.win 0).blk t).view.emb (blockRowIdx j k)) = V m c main_v0 (rowIdx (((cfg0.win 1).blk t).view.emb j) k)
  refine congrArg (V m c main_v0) (funext fun a => Fin.ext ?_)
  match a with
  | ⟨0, _⟩ => show win0_0.index t (0 : Fin 3) * 8 + 1 * (j 0).val = win0_1.index t (0 : Fin 2) * 8 + 1 * (j 0).val; omega
  | ⟨1, _⟩ => show win0_0.index t (1 : Fin 3) * 128 + 1 * (j 1).val = win0_1.index t (1 : Fin 2) * 128 + 1 * (j 1).val; omega
  | ⟨2, _⟩ => show win0_0.index t (2 : Fin 3) * 4096 + 1 * k.val = k.val; omega

/-- An index of the result is in point `t`'s block iff each coordinate is in the block's range on its axis. -/
theorem mem_block (t : Fin cfg0.N) (i : S64x256.Idx) :
    i ∈ ((cfg0.win 1).blk t).view.set ↔ ∀ a : Fin 2, win0_1.index t a * S8x128.size a ≤ (i a).val ∧ (i a).val < win0_1.index t a * S8x128.size a + S8x128.size a := by
  show i ∈ ((View.whole main_v1).slice (win0_1.rect t)).set ↔ _
  rw [View.set_slice_whole, Rect.mem_set_unit]
  exact Iff.rfl

/-- The output blocks tile the result: index (b, c) is in the block of the point with block index (b / 8, c / 128). -/
theorem blocks_cover (i : S64x256.Idx) :
    ∃ t : Fin cfg0.N, (cfg0.win 1).flush t = true ∧ i ∈ ((cfg0.win 1).blk t).view.set := by
  have hi0 : (i 0).val < 64 := (i 0).isLt
  have hi1 : (i 1).val < 256 := (i 1).isLt
  obtain ⟨t, ht⟩ := block_onto ⟨(i 0).val / 8, by omega⟩ ⟨(i 1).val / 128, by omega⟩
  have q0 : win0_1.index t (0 : Fin 2) = (i 0).val / 8 := congrFun ht 0
  have q1 : win0_1.index t (1 : Fin 2) = (i 1).val / 128 := congrFun ht 1
  refine ⟨t, flush0_1 t, ?_⟩
  rw [mem_block]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 128 ≤ (i 1).val ∧ (i 1).val < win0_1.index t (1 : Fin 2) * 128 + 128; omega

/-- THE RESULT ARRAY after the run is the row mean of `rows`. -/
theorem final (c : Dev nD) : (dats m 0 c).arrAt 1 cfg0.N = rowMean (rows m c) :=
  (dats m 0 c).arrAt_eq_of_cover 1 (rowMean (rows m c)) (fun t _ => flushed_eq m c t) blocks_cover

/-- `rows` is the argument reshaped to [64, 256, 4096]: the one host operation before the launch. -/
theorem rows_eq (c : Dev nD) :
    rows m c = shapeCast S64x256x4096 (m ((c : Thread nD τ).loc main_arg0)) shapeCasts_S64x256x64x64_S64x256x4096 := by
  show (V m c main_v0 : S64x256x4096.Idx → Elt Ideal .f32) = _
  dsimp only [Gen.V, Gen.hostOps0]
  after_results
  rfl

/-- The kernel's run, read: the result array ends at the row mean of the reshaped argument, the argument unchanged. -/
theorem run : θ_run defs (onTc (τ := τ) (main (F := Ideal))) ⟨m, fun _ => 0, ρ⟩ fun r => ∀ c : Dev nD,
      r.2.mem ((c : Thread nD τ).loc main_v1)
        = rowMean (shapeCast S64x256x4096 (m ((c : Thread nD τ).loc main_arg0)) shapeCasts_S64x256x64x64_S64x256x4096)
      ∧ r.2.mem ((c : Thread nD τ).loc main_arg0) = m ((c : Thread nD τ).loc main_arg0) :=
  (θ_run defs _ _).mono (fun r h c => ⟨(h c).1.trans ((final m c).trans (congrArg rowMean (rows_eq m c))), (h c).2⟩)
    (Value.run_blocks m ρ)

end Cert.KernelIdeal.Mean

end
-- ==== Proof.lean ====
/-
  The certificate of a spatial mean pool: for an input `x` of shape [64, 256, 64, 64], the kernel and the reference both return
  the array of shape [64, 256] whose entry (b, c) is the mean of the 4096 entries x(b, c, ·, ·).

  Both programs first reshape `x` to rows `y` of shape [64, 256, 4096] (the same host operation). The kernel then walks an
  8 × 2 grid; at each point it sums an [8, 128, 4096] block of `y` along its last axis and multiplies the sums by the constant
  2⁻¹². The reference sums every row of `y` from zero and divides by 4096. Over the extended reals the product with 2⁻¹² and the
  quotient by 4096 are one function (4096 is a nonzero real; the infinities are included), and a sum does not depend on how
  the rows are tiled, so both results are the row mean of `y`: entry (b, c) is (Σₖ y(b, c, k)) · 2⁻¹². No finiteness of the
  input is used.

  The modules: RowMean (the specification and the law, no program), RefMean (the reference's result is the row mean),
  BlockMean (what the kernel's body stores, at an index), PoolArray (from the grid's blocks to the kernel's result array).
  The frames of the two kernel programs are the generated ones; the reference's frame is its generated run with the result
  dropped; the idealization rewrote nothing, so the preservation claim is trivial.
-/
import proofs.«163873_j36679020708252_2_alg».proof.Defs
import proofs.«163873_j36679020708252_2_alg».proof.Proof.Gen.Kernel
import proofs.«163873_j36679020708252_2_alg».proof.Proof.Gen.Kernel.Skeleton
import proofs.«163873_j36679020708252_2_alg».proof.Proof.Gen.Kernel.Launch
import proofs.«163873_j36679020708252_2_alg».proof.Proof.Gen.Kernel.Points
import proofs.«163873_j36679020708252_2_alg».proof.Proof.Gen.Kernel.Frame
import proofs.«163873_j36679020708252_2_alg».proof.Proof.Gen.KernelIdeal
import proofs.«163873_j36679020708252_2_alg».proof.Proof.Gen.KernelIdeal.Skeleton
import proofs.«163873_j36679020708252_2_alg».proof.Proof.Gen.KernelIdeal.Launch
import proofs.«163873_j36679020708252_2_alg».proof.Proof.Gen.KernelIdeal.Points
import proofs.«163873_j36679020708252_2_alg».proof.Proof.Gen.KernelIdeal.Frame
import proofs.«163873_j36679020708252_2_alg».proof.Proof.Gen.ReferenceIdeal
import proofs.«163873_j36679020708252_2_alg».proof.Proof.Gen.Pre_finite_inputs
import proofs.«163873_j36679020708252_2_alg».proof.Proof.Gen.KernelIdeal.Value
import proofs.«163873_j36679020708252_2_alg».proof.Proof.Gen.ReferenceIdeal.Run
import proofs.«163873_j36679020708252_2_alg».proof.Proof.Gen.ReferenceIdeal.Read
import proofs.«163873_j36679020708252_2_alg».proof.Proof.RowMean
import proofs.«163873_j36679020708252_2_alg».proof.Proof.RefMean
import proofs.«163873_j36679020708252_2_alg».proof.Proof.BlockMean
import proofs.«163873_j36679020708252_2_alg».proof.Proof.PoolArray
import Idealize.ShloMosaic.Adequacy
import Idealize.ShloMosaic.Init

noncomputable section

namespace Cert.Proof

open Idealize.ShloMosaic Idealize.SL.Sem

namespace Claims

theorem frame_kernel : Cert.frame_Kernel := fun m ρ _ => Cert.Kernel.Gen.frame m ρ

theorem frame_kernelIdeal : Cert.frame_KernelIdeal := fun m ρ _ => Cert.KernelIdeal.Gen.frame m ρ

/-- The reference's run ends with its argument unchanged. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end, from memories agreeing on the argument, with the result at the row mean of the reshaped argument. -/
theorem algebraic : Cert.algebraic_KernelIdeal_ReferenceIdeal := by
  intro m ρ m' ρ' _ hagree
  refine ⟨_, Cert.KernelIdeal.Mean.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.Mean.result_eq, hagree c]
  rfl

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
